-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192 .f32) (main_arg1 : FVec F S8192x8192 .f32) (main_arg2 : FVec F S8192x8192 .f32) (main_arg3 : IVec S8192x8192 1) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192 : Shape := ⟨1, ![8192]⟩
abbrev S8192x8192 : Shape := ⟨2, ![8192, 8192]⟩
abbrev S8192x1 : Shape := ⟨2, ![8192, 1]⟩
abbrev S512x2048 : Shape := ⟨2, ![512, 2048]⟩
abbrev S2048 : Shape := ⟨1, ![2048]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x8192, .f32⟩
  | .hbm, ⟨3, _⟩ => ⟨S8192x8192, .i1⟩
  | .hbm, ⟨4, _⟩ => ⟨S8192x1, .f32⟩
  | .hbm, ⟨5, _⟩ => ⟨S8192x8192, .i32⟩
  | .hbm, ⟨6, _⟩ => ⟨S8192x8192, .f32⟩
  | .hbm, ⟨7, _⟩ => ⟨S8192x8192, .f32⟩
  | .hbm, ⟨8, _⟩ => ⟨S8192, .f32⟩
  | .local _ .vmem, ⟨0, _⟩ => ⟨S8192x1, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .i32⟩
  | .local _ .vmem, ⟨6, _⟩ => ⟨S512x2048, .i32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S2048, .f32⟩
  | .local _ .vmem, ⟨12, _⟩ => ⟨S2048, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 1 → Memref sig .tc .vmem S8192x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192_S8192x1 : S8192.ShapeCasts S8192x1
  natLt_1_32 : 1 < 32
  inb_S2048_S2048_0 : ∀ a, (![0] : Fin 1 → Nat) a + S2048.size a ≤ S2048.size a
  h_S2048 : 0 < S2048.numel
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  broadcasts_S512x1_S512x2048 : S512x1.Broadcasts S512x2048
  shapeCasts_S2048_S2048 : S2048.ShapeCasts S2048
  reduces_S512x2048_S2048 : S512x2048.Reduces [0] S2048
  hrank0 : 0 < grid0.rank
  k0_mult1_dvd : ∀ i : grid0.Coords, 512 ∣ (k0_mult1 i).toNat
  k0_off1_inb : ∀ i : grid0.Coords, ∀ a, (k0_off1 i) a + S512x1.size a ≤ S8192x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S8192x1.size a
  hwx0_0 : ∀ i : grid0.Coords, EltTy.bits .f32 = 32 ∨ (Rect.block (s := S8192x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x8192.size a
  hwx0_3 : ∀ i : grid0.Coords, EltTy.bits .i32 = 32 ∨ (Rect.block (s := S8192x8192) S512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x8192.size a
  hwx0_4 : ∀ i : grid0.Coords, EltTy.bits .f32 = 32 ∨ (Rect.block (s := S8192x8192) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x8192.size a
  hwx0_5 : ∀ i : grid0.Coords, EltTy.bits .f32 = 32 ∨ (Rect.block (s := S8192x8192) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S8192.size a
  hwx0_6 : ∀ i : grid0.Coords, EltTy.bits .f32 = 32 ∨ (Rect.block (s := S8192) S2048.size (cc0_transform_6 i) (hinb0_6 i)).WholeWords (EltTy.packing .f32)

variable [Facts₀]

abbrev win0_0 : Pipeline.Window sig grid0 :=
  Pipeline.Window.ofSpec (Memref.whole main_v0) S8192x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S8192x1 : Shape := ⟨2, ![8192, 1]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x8192, .f32⟩
  | .hbm, ⟨3, _⟩ => ⟨S8192x8192, .i1⟩
  | .hbm, ⟨4, _⟩ => ⟨S8192x8192, .f32⟩
  | .hbm, ⟨5, _⟩ => ⟨S8192x1, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  reducesTo_S8192x8192_S8192_d0 : S8192x8192.ReducesTo [0] S8192
  h_S_ : 0 < S_.numel

variable [Facts₀]

class Facts : Prop extends Facts₀ where

variable [Facts]
-- ==== Proof.Spec.lean ====
/-
  The synapse update, stated once, over the extended reals.

  A presynaptic row `a` and a postsynaptic column `z` meet at one synapse with gating state `s`, depression `d`
  and a connectivity bit `b`; the row's spike is `spk`. One step of the model is
      s' = s + g·(spk − s·κₛ)          d' = d + g·((1 − d)·κ_d)          g = 1 if the synapse exists, else 0
  with κₛ, κ_d the two f32 literals both programs spell, and the column's total drive is
      f z = ∑ₐ (g·d')·s'   over every row.
  Both programs compute these three arrays; they differ in a term that is zero (the reference keeps
  `(−0·spk)·d` in front of `(1 − d)·κ_d`) and in how the column sum is grouped (sixteen row tiles of 512 rows,
  added one after the other onto a zero, against one sum over 8192 rows). The first needs `0·x = 0` and
  `0 + y = y`, the second only that addition is commutative and associative: both hold for every extended real,
  so nothing here asks the inputs to be finite.
-/
import Idealize.ShloMosaic.PureOps.Ideal
import Idealize.ShloMosaic.PureOps.Ideal.Laws
import Idealize.ShloMosaic.Lib.ValueIdx
import Mathlib.Algebra.BigOperators.Fin

noncomputable section

namespace Cert.Synapse

open Idealize.ShloMosaic Idealize.ShloMosaic.ValueIdx

/-! ## One synapse -/

/-- dt/τ as the f32 both programs multiply `s` by. -/
abbrev kS : EReal := Ideal.ofBits .f32 0x3D4CCCCD#32
/-- dt/τ_D as the f32 both programs multiply `1 − d` by. -/
abbrev kD : EReal := Ideal.ofBits .f32 0x392EC33E#32
/-- The f32 one. -/
abbrev one : EReal := Ideal.ofBits .f32 0x3F800000#32

/-- The gate of a synapse: its connectivity bit as a number, 0 or 1. -/
def gate (b : BitVec 1) : EReal := ((b.toNat : ℝ) : EReal)

/-- The gating state after the step. -/
def sNext (spk s : EReal) (b : BitVec 1) : EReal := s + gate b * (spk - s * kS)
/-- The depression variable after the step. -/
def dNext (d : EReal) (b : BitVec 1) : EReal := d + gate b * ((one - d) * kD)
/-- What the synapse contributes to its column's drive, grouped as both programs group it. -/
def drive (spk s d : EReal) (b : BitVec 1) : EReal := gate b * dNext d b * sNext spk s b

/-- A bit widened to a word, tested against zero, widened again and read as a signed integer is the bit read as
    an unsigned one: the mask the kernel rebuilds from the widened connectivity array is the reference's. -/
theorem gate_of_word (b : BitVec 1) :
    (((((IntOp.cmpi .ne (b.setWidth 32) (0#32 : BitVec 32)).setWidth 32 : BitVec 32).toInt : ℤ) : ℝ) : EReal) = gate b := by
  unfold gate
  have h : ∀ b : BitVec 1, ((IntOp.cmpi .ne (b.setWidth 32) (0#32 : BitVec 32)).setWidth 32 : BitVec 32).toInt = (b.toNat : ℤ) := by
    decide
  rw [h b]
  norm_cast

/-- The reference's depression increment carries a leading `(−0·spk)·d`: it is zero, whatever `spk` and `d` are. -/
theorem dead_term (spk d y : EReal) : Ideal.ofBits .f32 0x80000000#32 * spk * d + y = y := by
  have h0 : Ideal.ofBits .f32 0x80000000#32 = 0 := by simp [Ideal.ofBits, Ideal.ieee]
  rw [h0, zero_mul, zero_mul, zero_add]

/-! ## A column of 8192 rows summed sixteen tiles of 512 at a time -/

section Tiles
variable {M : Type*} [AddCommMonoid M]

/-- A function on the 8192 rows, continued by zero past the last. -/
def past (f : Fin 8192 → M) (k : ℕ) : M := if h : k < 8192 then f ⟨k, h⟩ else 0

/-- The sum of the first `n` tiles of 512 rows. -/
def tiles (f : Fin 8192 → M) (n : ℕ) : M := ∑ k ∈ Finset.range (512 * n), past f k

theorem tiles_zero (f : Fin 8192 → M) : tiles f 0 = 0 := by
  unfold tiles; simp

/-- One more tile: its 512 rows are added to what the tiles before gave. -/
theorem tiles_succ (f : Fin 8192 → M) (i : ℕ) (hi : i < 16) :
    tiles f (i + 1) = tiles f i + ∑ r : Fin 512, f ⟨512 * i + r.val, by have := r.isLt; omega⟩ := by
  unfold tiles
  rw [show 512 * (i + 1) = 512 * i + 512 from by ring, Finset.sum_range_add]
  congr 1
  rw [← Fin.sum_univ_eq_sum_range (fun x => past f (512 * i + x)) 512]
  refine Finset.sum_congr rfl fun r _ => ?_
  unfold past
  rw [dif_pos]

/-- All sixteen tiles are the whole column. -/
theorem tiles_all (f : Fin 8192 → M) : tiles f 16 = ∑ k : Fin 8192, f k := by
  unfold tiles
  rw [show 512 * 16 = 8192 from rfl, ← Fin.sum_univ_eq_sum_range (past f) 8192]
  refine Finset.sum_congr rfl fun k _ => ?_
  unfold past
  rw [dif_pos k.isLt]

end Tiles

/-! ## The three result arrays -/

/-- The shapes, literally: the 8192 rows or columns, and the 8192 × 8192 synapses. -/
abbrev Row : Shape := ⟨1, ![8192]⟩
abbrev Syn : Shape := ⟨2, ![8192, 8192]⟩

/-- The gating states after the step: synapse (a, z) sees row a's spike. -/
def SNext (spike : Row.Idx → EReal) (s : Syn.Idx → EReal) (syn : Syn.Idx → BitVec 1) : Syn.Idx → EReal :=
  fun i => sNext (spike (ix1 (i 0))) (s i) (syn i)

/-- The depression variables after the step. -/
def DNext (d : Syn.Idx → EReal) (syn : Syn.Idx → BitVec 1) : Syn.Idx → EReal :=
  fun i => dNext (d i) (syn i)

/-- Column z's contributions, row by row. -/
def column (spike : Row.Idx → EReal) (s d : Syn.Idx → EReal) (syn : Syn.Idx → BitVec 1) (z : Fin 8192) : Fin 8192 → EReal :=
  fun a => drive (spike (ix1 a)) (s (ix2 a z)) (d (ix2 a z)) (syn (ix2 a z))

/-- The drive of every column: the sum of its contributions over the rows. -/
def Drive (spike : Row.Idx → EReal) (s d : Syn.Idx → EReal) (syn : Syn.Idx → BitVec 1) : Row.Idx → EReal :=
  fun j => ∑ a : Fin 8192, column spike s d syn (j 0) a

end Cert.Synapse

end
-- ==== Proof.RefIsSpec.lean ====
/-
  The reference computes the synapse update as stated: each of its three results, read index by index through the
  generated stage lemmas, is the specification's array. The only step that is not a re-spelling is the depression
  increment, where the reference's leading `(−0·spk)·d` is dropped (`dead_term`), and the column sum, whose initial
  value is the zero word.
-/
import proofs.«115604_j42494406426725_2_alg».proof.Proof.Gen.ReferenceIdeal.Read
import proofs.«115604_j42494406426725_2_alg».proof.Proof.Spec

noncomputable section

namespace Cert.Synapse.Ref

open Cert.ReferenceIdeal Cert.ReferenceIdeal.Read Idealize.ShloMosaic Idealize.ShloMosaic.ValueIdx Cert.Synapse

/-- Synapse (a, z) reads the spike of row a: the two broadcasts compose to the row coordinate. -/
theorem spike_idx (i : S8192x8192.Idx) : idx_main_v1 (idx_main_v4 i) = ix1 (i 0) :=
  funext fun a => Fin.ext (by match a with | ⟨0, _⟩ => rfl)

theorem spike_idx' (i : S8192x8192.Idx) : idx_main_v1 (idx_main_v8 i) = ix1 (i 0) :=
  funext fun a => Fin.ext (by match a with | ⟨0, _⟩ => rfl)

/-- The reference's first result is the gating state after the step. -/
theorem sNext_eq (x0 : (⟨S8192, .f32⟩ : BufTy).Contents (Elt Ideal)) (x1 : (⟨S8192x8192, .f32⟩ : BufTy).Contents (Elt Ideal))
    (x3 : (⟨S8192x8192, .i1⟩ : BufTy).Contents (Elt Ideal)) :
    val_main_v16 (F := Ideal) x0 x1 x3 = SNext x0 x1 x3 := by
  funext i
  rw [val_main_v16_apply, val_main_v15_apply, val_main_v0_apply, val_main_v5_apply, val_main_v4_apply, val_main_v1_apply,
    val_main_v3_apply, val_main_v2_apply, val_main_cst_apply, spike_idx]
  rfl

/-- The reference's second result is the depression variable after the step: its increment's first summand is zero. -/
theorem dNext_eq (x0 : (⟨S8192, .f32⟩ : BufTy).Contents (Elt Ideal)) (x2 : (⟨S8192x8192, .f32⟩ : BufTy).Contents (Elt Ideal))
    (x3 : (⟨S8192x8192, .i1⟩ : BufTy).Contents (Elt Ideal)) :
    val_main_v18 (F := Ideal) x0 x2 x3 = DNext x2 x3 := by
  funext i
  rw [val_main_v18_apply, val_main_v17_apply, val_main_v0_apply, val_main_v14_apply, val_main_v9_apply, val_main_v8_apply,
    val_main_v7_apply, val_main_v6_apply, val_main_cst_0_apply, val_main_v1_apply, val_main_v13_apply, val_main_v11_apply,
    val_main_v10_apply, val_main_cst_1_apply, val_main_v12_apply, val_main_cst_2_apply, spike_idx']
  show x2 i + gate (x3 i) * (Ideal.ofBits .f32 0x80000000#32 * x0 (ix1 (i 0)) * x2 i + (one - x2 i) * kD) = _
  rw [dead_term]
  rfl

/-- The reference's third result is the drive of every column: the zero word plus the sum over the rows. -/
theorem drive_eq (x0 : (⟨S8192, .f32⟩ : BufTy).Contents (Elt Ideal)) (x1 x2 : (⟨S8192x8192, .f32⟩ : BufTy).Contents (Elt Ideal))
    (x3 : (⟨S8192x8192, .i1⟩ : BufTy).Contents (Elt Ideal)) :
    val_main_v21 (F := Ideal) x0 x1 x2 x3 = Drive x0 x1 x2 x3 := by
  funext i
  obtain ⟨z, rfl⟩ : ∃ z : Fin 8192, i = ix1 z := ⟨i 0, eq_ix1 i⟩
  rw [val_main_v21_apply, val_main_cst_3_apply]
  show Ideal.ofBits .f32 0x00000000#32 + _ = _
  rw [Ideal.ofBits_zero_f32, zero_add]
  refine Finset.sum_congr rfl fun k _ => ?_
  have hk : idx_main_v21 (ix1 z) k = ix2 k z :=
    funext fun a => Fin.ext (by match a with | ⟨0, _⟩ => rfl | ⟨1, _⟩ => rfl)
  rw [hk, val_main_v20_apply, val_main_v19_apply, val_main_v0_apply, sNext_eq, dNext_eq]
  rfl

end Cert.Synapse.Ref

end
-- ==== Proof.KernelCases.lean ====
/-
  What one grid point leaves in the three output tiles, as values of what it loaded.

  A grid point (j, i) holds the [512, 2048] tile of `s`, of `d` and of the widened connectivity array whose rows are
  512·i … 512·i + 511 and whose columns are 2048·j … 2048·j + 2047, and the whole spike column, of which it reads
  the 512 rows of its tile. It stores the tile of the new gating states, the tile of the new depression variables,
  and into the [2048] accumulator the accumulator's previous contents plus the tile's column sums — previous contents
  that at i = 0 are the zeros it has just stored there (case A), and otherwise what the point before left (case B).
  The statements are at any float instance: nothing here reads a float.
-/
import proofs.«115604_j42494406426725_2_alg».proof.Proof.Gen.KernelIdeal.Value
import Idealize.ShloMosaic.Lib.Pipeline.Value
import Idealize.ShloMosaic.Lib.Tactic

noncomputable section

namespace Cert.Synapse.Kernel

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The 512 rows of the spike column that the tile at grid point `i` reads: rows 512·i₁ onwards. -/
abbrev spikeTile (i : grid0.Coords) (x0 : Vec F S8192x1 .f32) : Vec F S512x1 .f32 :=
  View.ld x0 (Rect.unit (s := S8192x1) (k0_off1 i) S512x1.size (k0_off1_inb i))

/-! ## Every point but the first of a column tile: the accumulator is what the point before left -/

theorem out_B_4 (c : Dev nD) (i : grid0.Coords) (arg2 : Memref sig .tc .vmem S8192x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048 .f32) (harg8 : arg8.IsWhole) (hc0 : ¬cond0_0 i)
    (x0 : Vec F S8192x1 .f32) (x1 : Vec F S512x2048 .f32) (x2 : Vec F S512x2048 .f32) (x3 : Vec F S512x2048 .i32) (xo6 : Vec F S2048 .f32) :
    out0_B_4 c i arg2 harg2 arg3 harg3 arg4 harg4 arg5 harg5 arg6 harg6 arg7 harg7 arg8 harg8 hc0 x0 x1 x2 x3 xo6 = k0_pay3 (spikeTile i x0) x1 x3 := by
  unfold out0_B_4
  rw [View.read_writes_eq_canon _ _ _ (cover0_B_4 c i arg2 harg2 arg3 harg3 arg4 harg4 arg5 harg5 arg6 harg6 arg7 harg7 arg8 harg8 hc0 x0 x1 x2 x3 xo6)]
  unfold kernelRun0_B
  dsimp only
  rw [View.canon_unit_zero hz2]
  simp only [View.readAt_eq_ld, harg2.read_unread, harg3.read_unread, harg4.read_unread, harg5.read_unread, harg8.read_unread, View.ld_unit_zero (S := S512x2048) hz2, View.ld_unit_zero (S := S2048) hz1]

theorem out_B_5 (c : Dev nD) (i : grid0.Coords) (arg2 : Memref sig .tc .vmem S8192x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048 .f32) (harg8 : arg8.IsWhole) (hc0 : ¬cond0_0 i)
    (x0 : Vec F S8192x1 .f32) (x1 : Vec F S512x2048 .f32) (x2 : Vec F S512x2048 .f32) (x3 : Vec F S512x2048 .i32) (xo6 : Vec F S2048 .f32) :
    out0_B_5 c i arg2 harg2 arg3 harg3 arg4 harg4 arg5 harg5 arg6 harg6 arg7 harg7 arg8 harg8 hc0 x0 x1 x2 x3 xo6 = k0_pay4 x2 x3 := by
  unfold out0_B_5
  rw [View.read_writes_eq_canon _ _ _ (cover0_B_5 c i arg2 harg2 arg3 harg3 arg4 harg4 arg5 harg5 arg6 harg6 arg7 harg7 arg8 harg8 hc0 x0 x1 x2 x3 xo6)]
  unfold kernelRun0_B
  dsimp only
  rw [View.canon_unit_zero hz2]
  simp only [View.readAt_eq_ld, harg2.read_unread, harg3.read_unread, harg4.read_unread, harg5.read_unread, harg8.read_unread, View.ld_unit_zero (S := S512x2048) hz2, View.ld_unit_zero (S := S2048) hz1]

theorem out_B_6 (c : Dev nD) (i : grid0.Coords) (arg2 : Memref sig .tc .vmem S8192x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048 .f32) (harg8 : arg8.IsWhole) (hc0 : ¬cond0_0 i)
    (x0 : Vec F S8192x1 .f32) (x1 : Vec F S512x2048 .f32) (x2 : Vec F S512x2048 .f32) (x3 : Vec F S512x2048 .i32) (xo6 : Vec F S2048 .f32) :
    out0_B_6 c i arg2 harg2 arg3 harg3 arg4 harg4 arg5 harg5 arg6 harg6 arg7 harg7 arg8 harg8 hc0 x0 x1 x2 x3 xo6 = k0_pay5 (spikeTile i x0) x1 x2 x3 xo6 := by
  unfold out0_B_6
  rw [View.read_writes_eq_canon _ _ _ (cover0_B_6 c i arg2 harg2 arg3 harg3 arg4 harg4 arg5 harg5 arg6 harg6 arg7 harg7 arg8 harg8 hc0 x0 x1 x2 x3 xo6)]
  unfold kernelRun0_B
  dsimp only
  sl_unfold_words
  rw [View.canon_unit_zero hz1]
  simp only [View.readAt_eq_ld, harg2.read_unread, harg3.read_unread, harg4.read_unread, harg5.read_unread, harg8.read_unread, View.ld_unit_zero (S := S512x2048) hz2, View.ld_unit_zero (S := S2048) hz1]
  rfl

/-! ## The first point of a column tile: the accumulator is the zeros just stored -/

theorem out_A_4 (c : Dev nD) (i : grid0.Coords) (arg2 : Memref sig .tc .vmem S8192x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048 .f32) (harg8 : arg8.IsWhole) (hc0 : cond0_0 i)
    (x0 : Vec F S8192x1 .f32) (x1 : Vec F S512x2048 .f32) (x2 : Vec F S512x2048 .f32) (x3 : Vec F S512x2048 .i32) :
    out0_A_4 c i arg2 harg2 arg3 harg3 arg4 harg4 arg5 harg5 arg6 harg6 arg7 harg7 arg8 harg8 hc0 x0 x1 x2 x3 = k0_pay3 (spikeTile i x0) x1 x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  rw [View.canon_unit_zero hz2]
  simp only [View.readAt_eq_ld, harg2.read_unread, harg3.read_unread, harg4.read_unread, harg5.read_unread, harg8.read_unread, View.ld_unit_zero (S := S512x2048) hz2, View.ld_unit_zero (S := S2048) hz1]

theorem out_A_5 (c : Dev nD) (i : grid0.Coords) (arg2 : Memref sig .tc .vmem S8192x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048 .f32) (harg8 : arg8.IsWhole) (hc0 : cond0_0 i)
    (x0 : Vec F S8192x1 .f32) (x1 : Vec F S512x2048 .f32) (x2 : Vec F S512x2048 .f32) (x3 : Vec F S512x2048 .i32) :
    out0_A_5 c i arg2 harg2 arg3 harg3 arg4 harg4 arg5 harg5 arg6 harg6 arg7 harg7 arg8 harg8 hc0 x0 x1 x2 x3 = k0_pay4 x2 x3 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  rw [View.canon_unit_zero hz2]
  simp only [View.readAt_eq_ld, harg2.read_unread, harg3.read_unread, harg4.read_unread, harg5.read_unread, harg8.read_unread, View.ld_unit_zero (S := S512x2048) hz2, View.ld_unit_zero (S := S2048) hz1]

theorem out_A_6 (c : Dev nD) (i : grid0.Coords) (arg2 : Memref sig .tc .vmem S8192x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S2048 .f32) (harg8 : arg8.IsWhole) (hc0 : cond0_0 i)
    (x0 : Vec F S8192x1 .f32) (x1 : Vec F S512x2048 .f32) (x2 : Vec F S512x2048 .f32) (x3 : Vec F S512x2048 .i32) :
    out0_A_6 c i arg2 harg2 arg3 harg3 arg4 harg4 arg5 harg5 arg6 harg6 arg7 harg7 arg8 harg8 hc0 x0 x1 x2 x3 = k0_pay5 (spikeTile i x0) x1 x2 x3 k0_pay1 := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S2048) hz1, View.readCov_unit_zero (S := S2048) _ hz1]
  simp only [View.readAt_eq_ld, harg2.read_unread, harg3.read_unread, harg4.read_unread, harg5.read_unread, harg8.read_unread, View.ld_unit_zero (S := S512x2048) hz2, View.ld_unit_zero (S := S2048) hz1]
  rfl

end Cert.Synapse.Kernel

end
-- ==== Proof.KernelPayload.lean ====
/-
  The tile's arithmetic, entry by entry, at the ideal values.

  In a [512, 2048] tile whose connectivity words are widened bits, entry (p, q) of the stored gating tile is the
  specification's `sNext` of row p's spike, of the entry's old state and of its bit; the stored depression tile is
  `dNext` likewise; and entry q of the new accumulator is the old accumulator's plus the sum over the tile's 512 rows
  of the entries' `drive`. The mask is the one place where an integer is read: a widened bit, compared with zero,
  widened again and converted as a signed integer, is the bit as a number (`gate_of_word`).
-/
import proofs.«115604_j42494406426725_2_alg».proof.Proof.Gen.KernelIdeal.Skeleton
import proofs.«115604_j42494406426725_2_alg».proof.Proof.Spec
import Idealize.ShloMosaic.Lib.Pipeline.Value
import Idealize.ShloMosaic.PureOps.Ideal.Laws

noncomputable section

namespace Cert.Synapse.Kernel

open Cert.KernelIdeal Cert.KernelIdeal.Gen Idealize.ShloMosaic Idealize.ShloMosaic.ValueIdx Cert.Synapse

/-- A [512, 1] column spread over 2048 columns reads, at (p, q), the column's entry p. -/
theorem spread_apply {α : Type} (v : S512x1.Idx → α) (h : S512x1.Broadcasts S512x2048) (p : Fin 512) (q : Fin 2048) :
    broadcastTo S512x2048 v h (ix2 p q) = v (ix2 p (0 : Fin 1)) := by
  refine broadcastTo_apply v h (ix2 p q) (ix2 p (0 : Fin 1)) fun ax => ?_
  match ax with
  | ⟨0, _⟩ => show p.val = if (512 : ℕ) = 1 then 0 else p.val; rw [if_neg (by decide)]
  | ⟨1, _⟩ => show (0 : ℕ) = if (1 : ℕ) = 1 then 0 else q.val; rw [if_pos rfl]

/-- The sum of a [512, 2048] tile over its rows, read at column q: the 512 entries of that column. -/
theorem colsum_apply (src : FVec Ideal S512x2048 .f32) (h : S512x2048.Reduces [0] S2048) (hφ : FKind.Formats .f32)
    (hacc : (0x00000000#32 : BitVec 32) = FKind.add.neutral .f32 hφ) (q : Fin 2048) :
    multiReduction .add [0] S2048 src 0x00000000#32 h hφ hacc (ix1 q) = ∑ r : Fin 512, src (ix2 r q) := by
  refine (Ideal.multiReduction_add_single src 0x00000000#32 h hφ hacc (ix1 q)).trans ?_
  refine Finset.sum_congr rfl fun r _ => congrArg src ?_
  exact funext fun a => Fin.ext (by match a with | ⟨0, _⟩ => rfl | ⟨1, _⟩ => rfl)

/-- The mask at an entry whose word is a widened bit is that bit's gate. -/
theorem mask_apply (v10 : Vec Ideal S512x2048 .i32) (b : BitVec 1) (p : Fin 512) (q : Fin 2048)
    (h : v10 (ix2 p q) = b.setWidth 32) : k0_pay2 (F := Ideal) v10 (ix2 p q) = gate b := by
  unfold k0_pay2
  show (((((IntOp.cmpi .ne (v10 (ix2 p q)) (0#32 : BitVec 32)).setWidth 32 : BitVec 32).toInt : ℤ) : ℝ) : EReal) = gate b
  rw [h]
  exact gate_of_word b

/-- The stored gating tile, entry by entry. -/
theorem sNext_apply (v6 : Vec Ideal S512x1 .f32) (v8 : Vec Ideal S512x2048 .f32) (v10 : Vec Ideal S512x2048 .i32)
    (b : BitVec 1) (p : Fin 512) (q : Fin 2048) (h : v10 (ix2 p q) = b.setWidth 32) :
    k0_pay3 (F := Ideal) v6 v8 v10 (ix2 p q) = sNext (v6 (ix2 p (0 : Fin 1))) (v8 (ix2 p q)) b := by
  unfold k0_pay3
  show v8 (ix2 p q) + k0_pay2 (F := Ideal) v10 (ix2 p q)
      * (broadcastTo S512x2048 (shapeCast S512x1 v6 _) _ (ix2 p q) - v8 (ix2 p q) * Ideal.ofBits .f32 0x3D4CCCCD#32) = _
  rw [mask_apply v10 b p q h, spread_apply, shapeCast_self]
  rfl

/-- The stored depression tile, entry by entry. -/
theorem dNext_apply (v9 : Vec Ideal S512x2048 .f32) (v10 : Vec Ideal S512x2048 .i32)
    (b : BitVec 1) (p : Fin 512) (q : Fin 2048) (h : v10 (ix2 p q) = b.setWidth 32) :
    k0_pay4 (F := Ideal) v9 v10 (ix2 p q) = dNext (v9 (ix2 p q)) b := by
  unfold k0_pay4
  show v9 (ix2 p q) + k0_pay2 (F := Ideal) v10 (ix2 p q)
      * ((Ideal.ofBits .f32 0x3F800000#32 - v9 (ix2 p q)) * Ideal.ofBits .f32 0x392EC33E#32) = _
  rw [mask_apply v10 b p q h]
  rfl

/-- The new accumulator at column q: the old one's entry plus the tile's column sum of mask · new depression · new
    gating state. -/
theorem acc_apply (v6 : Vec Ideal S512x1 .f32) (v8 v9 : Vec Ideal S512x2048 .f32) (v10 : Vec Ideal S512x2048 .i32)
    (v28 : Vec Ideal S2048 .f32) (q : Fin 2048) :
    k0_pay5 (F := Ideal) v6 v8 v9 v10 v28 (ix1 q)
      = v28 (ix1 q) + ∑ r : Fin 512, k0_pay2 (F := Ideal) v10 (ix2 r q) * k0_pay4 (F := Ideal) v9 v10 (ix2 r q)
          * k0_pay3 (F := Ideal) v6 v8 v10 (ix2 r q) := by
  unfold k0_pay5
  exact congrArg₂ (· + ·) (congrFun (shapeCast_self v28 _) (ix1 q)) (colsum_apply _ _ _ _ q)

/-- So one entry's summand is the specification's `drive`. -/
theorem drive_apply (v6 : Vec Ideal S512x1 .f32) (v8 v9 : Vec Ideal S512x2048 .f32) (v10 : Vec Ideal S512x2048 .i32)
    (b : BitVec 1) (p : Fin 512) (q : Fin 2048) (h : v10 (ix2 p q) = b.setWidth 32) :
    k0_pay2 (F := Ideal) v10 (ix2 p q) * k0_pay4 (F := Ideal) v9 v10 (ix2 p q) * k0_pay3 (F := Ideal) v6 v8 v10 (ix2 p q)
      = drive (v6 (ix2 p (0 : Fin 1))) (v8 (ix2 p q)) (v9 (ix2 p q)) b := by
  rw [mask_apply v10 b p q h, dNext_apply v9 v10 b p q h, sNext_apply v6 v8 v10 b p q h]
  rfl

end Cert.Synapse.Kernel

end
-- ==== Proof.KernelBlocks.lean ====
/-
  From tiles to arrays: what the kernel's three result arrays hold after the run.

  Grid point t of the 64 is (j, i) = (t / 16, t % 16): the tile of rows 512·i … and columns 2048·j …. Its gating and
  depression tiles are written back at once, the 64 tiles are disjoint and fill the [8192, 8192] arrays, and each
  entry is the specification's. Its accumulator is carried from point to point while i runs through a column tile:
  after point (j, i) it holds, at column q of the tile, the sum of the first i + 1 row tiles of column 2048·j + q —
  by induction on the point —, is written back after i = 15, when that is the whole column's sum, and the four
  accumulator tiles fill the [8192] array.
-/
import proofs.«115604_j42494406426725_2_alg».proof.Proof.KernelCases
import proofs.«115604_j42494406426725_2_alg».proof.Proof.KernelPayload
import Idealize.ShloMosaic.Lib.StableHlo.Run

noncomputable section

namespace Cert.Synapse.Kernel

open Cert.KernelIdeal Cert.KernelIdeal.Gen Idealize.ShloMosaic Idealize.ShloMosaic.TcCoe Idealize.SL.Sem
open Idealize.ShloMosaic.ValueIdx Cert.Synapse
open Idealize.ShloMosaic.Pipeline (Dat)

variable (m : (ℓ : Loc nD τ sig) → Buf (Elt Ideal) ℓ) (ρ : Dev nD → PrngReg)

/-! ## Where a tile sits -/

/-- The array row of tile row p at point n: 512·(n mod 16) + p. -/
def rowOf (n : ℕ) (p : Fin 512) : Fin 8192 := ⟨512 * (n % 16) + p.val, by have := p.isLt; omega⟩
/-- The array column of tile column q at point n: 2048·(n / 16) + q (the quotient taken mod 4: there are 64 points). -/
def colOf (n : ℕ) (q : Fin 2048) : Fin 8192 := ⟨2048 * (n / 16 % 4) + q.val, by have := q.isLt; omega⟩

/-- The printed index maps and the offset of the spike rows, decided over the 64 points. -/
theorem idx_facts : ∀ t : Fin cfg0.N,
    win0_0.index t (0 : Fin 2) = 0 ∧ win0_0.index t (1 : Fin 2) = 0
    ∧ win0_1.index t (0 : Fin 2) = t.val % 16 ∧ win0_1.index t (1 : Fin 2) = t.val / 16
    ∧ win0_2.index t (0 : Fin 2) = t.val % 16 ∧ win0_2.index t (1 : Fin 2) = t.val / 16
    ∧ win0_3.index t (0 : Fin 2) = t.val % 16 ∧ win0_3.index t (1 : Fin 2) = t.val / 16
    ∧ win0_4.index t (0 : Fin 2) = t.val % 16 ∧ win0_4.index t (1 : Fin 2) = t.val / 16
    ∧ win0_5.index t (0 : Fin 2) = t.val % 16 ∧ win0_5.index t (1 : Fin 2) = t.val / 16
    ∧ win0_6.index t (0 : Fin 1) = t.val / 16
    ∧ k0_off1 (grid0.coords t) (0 : Fin 2) = 512 * (t.val % 16) ∧ k0_off1 (grid0.coords t) (1 : Fin 2) = 0 :=
  (by decide +kernel : ∀ t : Fin grid0.N, _)

theorem lt64 (t : Fin cfg0.N) : t.val < 64 := lt_of_lt_of_eq t.isLt (show cfg0.N = 64 from N_0)

/-! ## The arrays as the region finds them -/

/-- The spike vector enters the region as an [8192, 1] column. -/
theorem V_spike (c : Dev nD) : (V m c main_v0 : S8192x1.Idx → EReal)
    = shapeCast S8192x1 (m ((c : Thread nD τ).loc main_arg0)) shapeCasts_S8192_S8192x1 := by
  dsimp only [Gen.V, Gen.hostOps0]; after_results; rfl

/-- The connectivity bits enter the region widened to words. -/
theorem V_syn (c : Dev nD) : (V m c main_v1 : S8192x8192.Idx → BitVec 32)
    = extui 32 (m ((c : Thread nD τ).loc main_arg3)) natLt_1_32 := by
  dsimp only [Gen.V, Gen.hostOps0]; after_results

/-- The column at row r is the vector's entry r. -/
theorem column_apply (x : S8192.Idx → EReal) (h : S8192.ShapeCasts S8192x1) (r : Fin 8192) :
    shapeCast S8192x1 x h (ix2 r (0 : Fin 1)) = x (ix1 r) := by
  refine shapeCast_apply x h (ix2 r (0 : Fin 1)) (ix1 r) ?_
  rw [Shape.rowMajor_val_one, Shape.rowMajor_val_two]
  show r.val = r.val * 1 + 0
  omega

/-! ## What a point's input tiles read of the arrays -/

/-- The gating tile at point t, entry (p, q), is the array's entry (rowOf t p, colOf t q). -/
theorem sTile_apply (c : Dev nD) (t : Fin cfg0.N) (p : Fin 512) (q : Fin 2048) :
    (iblk m c 1 t : Vec Ideal S512x2048 .f32) (ix2 p q)
      = m ((c : Thread nD τ).loc main_arg1) (ix2 (rowOf t.val p) (colOf t.val q)) := by
  have hN := lt64 t
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = 512 * (t.val % 16) + p.val; omega
  | ⟨1, _⟩ => show win0_1.index t (1 : Fin 2) * 2048 + 1 * q.val = 2048 * (t.val / 16 % 4) + q.val; omega

/-- The depression tile likewise. -/
theorem dTile_apply (c : Dev nD) (t : Fin cfg0.N) (p : Fin 512) (q : Fin 2048) :
    (iblk m c 2 t : Vec Ideal S512x2048 .f32) (ix2 p q)
      = m ((c : Thread nD τ).loc main_arg2) (ix2 (rowOf t.val p) (colOf t.val q)) := by
  have hN := lt64 t
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 512 + 1 * p.val = 512 * (t.val % 16) + p.val; omega
  | ⟨1, _⟩ => show win0_2.index t (1 : Fin 2) * 2048 + 1 * q.val = 2048 * (t.val / 16 % 4) + q.val; omega

/-- The connectivity tile's entry is the array's bit, widened. -/
theorem synTile_apply (c : Dev nD) (t : Fin cfg0.N) (p : Fin 512) (q : Fin 2048) :
    (iblk m c 3 t : Vec Ideal S512x2048 .i32) (ix2 p q)
      = (m ((c : Thread nD τ).loc main_arg3) (ix2 (rowOf t.val p) (colOf t.val q))).setWidth 32 := by
  have hN := lt64 t
  obtain ⟨-, -, -, -, -, -, e0, e1, -⟩ := idx_facts t
  unfold iblk
  rw [View.read_apply]
  show (V m c main_v1 : S8192x8192.Idx → BitVec 32) _ = _
  rw [V_syn]
  show (m ((c : Thread nD τ).loc main_arg3) _).setWidth 32 = _
  refine congrArg (fun i => (m ((c : Thread nD τ).loc main_arg3) i).setWidth 32) (funext fun a => Fin.ext ?_)
  match a with
  | ⟨0, _⟩ => show win0_3.index t (0 : Fin 2) * 512 + 1 * p.val = 512 * (t.val % 16) + p.val; omega
  | ⟨1, _⟩ => show win0_3.index t (1 : Fin 2) * 2048 + 1 * q.val = 2048 * (t.val / 16 % 4) + q.val; omega

/-- The 512 spike rows the point reads are the vector's entries at the tile's rows. -/
theorem spikeTile_apply (c : Dev nD) (t : Fin cfg0.N) (p : Fin 512) :
    spikeTile (grid0.coords t) (iblk m c 0 t : Vec Ideal S8192x1 .f32) (ix2 p (0 : Fin 1))
      = m ((c : Thread nD τ).loc main_arg0) (ix1 (rowOf t.val p)) := by
  obtain ⟨z0, z1, -, -, -, -, -, -, -, -, -, -, -, o0, o1⟩ := idx_facts t
  show (iblk m c 0 t : Vec Ideal S8192x1 .f32) ((Rect.unit (s := S8192x1) (k0_off1 (grid0.coords t)) S512x1.size (k0_off1_inb (grid0.coords t))).idx (ix2 p (0 : Fin 1))) = _
  unfold iblk
  rw [View.read_apply]
  show (V m c main_v0 : S8192x1.Idx → EReal) _ = _
  rw [V_spike, ← column_apply (m ((c : Thread nD τ).loc main_arg0)) shapeCasts_S8192_S8192x1 (rowOf t.val p)]
  refine congrArg _ (funext fun a => Fin.ext ?_)
  match a with
  | ⟨0, _⟩ => show win0_0.index t (0 : Fin 2) * 8192 + 1 * (k0_off1 (grid0.coords t) (0 : Fin 2) + 1 * p.val) = 512 * (t.val % 16) + p.val; omega
  | ⟨1, _⟩ => show win0_0.index t (1 : Fin 2) * 1 + 1 * (k0_off1 (grid0.coords t) (1 : Fin 2) + 1 * 0) = 0; omega

/-! ## The two tiles written back at once -/

/-- The gating tile a point stores is the specification's array read through the point's block. -/
theorem sNextTile (c : Dev nD) (t : Fin cfg0.N) :
    (cfg0.win 4).cut (grid0.coords t) (k0_pay3 (F := Ideal) (spikeTile (grid0.coords t) (iblk m c 0 t)) (iblk m c 1 t) (iblk m c 3 t))
      = ((cfg0.win 4).blk t).view.read (Elt Ideal) (SNext (m ((c : Thread nD τ).loc main_arg0)) (m ((c : Thread nD τ).loc main_arg1)) (m ((c : Thread nD τ).loc main_arg3))) := by
  have hN := lt64 t
  obtain ⟨-, -, -, -, -, -, -, -, e0, e1, -⟩ := idx_facts t
  funext j
  obtain ⟨p, q, rfl⟩ : ∃ (p : Fin 512) (q : Fin 2048), j = ix2 p q := ⟨j 0, j 1, eq_ix2 (n0 := 512) (n1 := 2048) j⟩
  show k0_pay3 (F := Ideal) (spikeTile (grid0.coords t) (iblk m c 0 t)) (iblk m c 1 t) (iblk m c 3 t) (ix2 p q) = SNext (m ((c : Thread nD τ).loc main_arg0)) (m ((c : Thread nD τ).loc main_arg1)) (m ((c : Thread nD τ).loc main_arg3)) (((cfg0.win 4).blk t).view.emb (ix2 p q))
  have he : ((cfg0.win 4).blk t).view.emb (ix2 p q) = (ix2 (rowOf t.val p) (colOf t.val q)) :=
    funext fun a => Fin.ext (by
      match a with
      | ⟨0, _⟩ => show win0_4.index t (0 : Fin 2) * 512 + 1 * p.val = 512 * (t.val % 16) + p.val; omega
      | ⟨1, _⟩ => show win0_4.index t (1 : Fin 2) * 2048 + 1 * q.val = 2048 * (t.val / 16 % 4) + q.val; omega)
  rw [he]
  refine (sNext_apply (spikeTile (grid0.coords t) (iblk m c 0 t)) (iblk m c 1 t) (iblk m c 3 t) ((m ((c : Thread nD τ).loc main_arg3)) (ix2 (rowOf t.val p) (colOf t.val q))) p q (synTile_apply m c t p q)).trans ?_
  rw [spikeTile_apply, sTile_apply]
  rfl

/-- The depression tile likewise. -/
theorem dNextTile (c : Dev nD) (t : Fin cfg0.N) :
    (cfg0.win 5).cut (grid0.coords t) (k0_pay4 (F := Ideal) (iblk m c 2 t) (iblk m c 3 t))
      = ((cfg0.win 5).blk t).view.read (Elt Ideal) (DNext (m ((c : Thread nD τ).loc main_arg2)) (m ((c : Thread nD τ).loc main_arg3))) := by
  have hN := lt64 t
  obtain ⟨-, -, -, -, -, -, -, -, -, -, e0, e1, -⟩ := idx_facts t
  funext j
  obtain ⟨p, q, rfl⟩ : ∃ (p : Fin 512) (q : Fin 2048), j = ix2 p q := ⟨j 0, j 1, eq_ix2 (n0 := 512) (n1 := 2048) j⟩
  show k0_pay4 (F := Ideal) (iblk m c 2 t) (iblk m c 3 t) (ix2 p q) = DNext (m ((c : Thread nD τ).loc main_arg2)) (m ((c : Thread nD τ).loc main_arg3)) (((cfg0.win 5).blk t).view.emb (ix2 p q))
  have he : ((cfg0.win 5).blk t).view.emb (ix2 p q) = (ix2 (rowOf t.val p) (colOf t.val q)) :=
    funext fun a => Fin.ext (by
      match a with
      | ⟨0, _⟩ => show win0_5.index t (0 : Fin 2) * 512 + 1 * p.val = 512 * (t.val % 16) + p.val; omega
      | ⟨1, _⟩ => show win0_5.index t (1 : Fin 2) * 2048 + 1 * q.val = 2048 * (t.val / 16 % 4) + q.val; omega)
  rw [he]
  refine (dNext_apply (iblk m c 2 t) (iblk m c 3 t) ((m ((c : Thread nD τ).loc main_arg3)) (ix2 (rowOf t.val p) (colOf t.val q))) p q (synTile_apply m c t p q)).trans ?_
  rw [dTile_apply]
  rfl

/-- What point t writes back to the gating array, whichever case it runs. -/
theorem flushed4_eq (c : Dev nD) (t : Fin cfg0.N) :
    (dats m 0 c).flushed 4 t = ((cfg0.win 4).blk t).view.read (Elt Ideal) (SNext (m ((c : Thread nD τ).loc main_arg0)) (m ((c : Thread nD τ).loc main_arg1)) (m ((c : Thread nD τ).loc main_arg3))) := by
  by_cases h0 : t.val % 16 = 0
  · rw [Value.flushed4_A m c t h0, out_A_4]; exact sNextTile m c t
  · rw [Value.flushed4_B m c t h0, out_B_4]; exact sNextTile m c t

/-- What point t writes back to the depression array. -/
theorem flushed5_eq (c : Dev nD) (t : Fin cfg0.N) :
    (dats m 0 c).flushed 5 t = ((cfg0.win 5).blk t).view.read (Elt Ideal) (DNext (m ((c : Thread nD τ).loc main_arg2)) (m ((c : Thread nD τ).loc main_arg3))) := by
  by_cases h0 : t.val % 16 = 0
  · rw [Value.flushed5_A m c t h0, out_A_5]; exact dNextTile m c t
  · rw [Value.flushed5_B m c t h0, out_B_5]; exact dNextTile m c t

/-- An index of the array is in point t's tile iff each coordinate is in the tile's range on its axis. -/
theorem mem_tile4 (t : Fin cfg0.N) (i : S8192x8192.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v2_0).slice (win0_4.rect t)).set ↔ _
  rw [View.set_slice_whole, Rect.mem_set_unit]
  exact Iff.rfl

/-- Every synapse is in some point's tile: row a and column z in the tile of point 16·(z / 2048) + a / 512. -/
theorem cover4 (i : S8192x8192.Idx) : ∃ t : Fin cfg0.N, (cfg0.win 4).flush t = true ∧ i ∈ ((cfg0.win 4).blk t).view.set := by
  have h0 : (i 0).val < 8192 := (i 0).isLt
  have h1 : (i 1).val < 8192 := (i 1).isLt
  have hN : cfg0.N = 64 := N_0
  refine ⟨⟨16 * ((i 1).val / 2048) + (i 0).val / 512, by omega⟩, flush0_4 _, ?_⟩
  obtain ⟨-, -, -, -, -, -, -, -, e0, e1, -⟩ := idx_facts ⟨16 * ((i 1).val / 2048) + (i 0).val / 512, by omega⟩
  rw [mem_tile4]
  intro a
  match a with
  | ⟨0, _⟩ =>
    show win0_4.index _ (0 : Fin 2) * 512 ≤ (i 0).val ∧ (i 0).val < win0_4.index _ (0 : Fin 2) * 512 + 512
    rw [e0]; show (16 * ((i 1).val / 2048) + (i 0).val / 512) % 16 * 512 ≤ (i 0).val ∧ (i 0).val < (16 * ((i 1).val / 2048) + (i 0).val / 512) % 16 * 512 + 512
    omega
  | ⟨1, _⟩ =>
    show win0_4.index _ (1 : Fin 2) * 2048 ≤ (i 1).val ∧ (i 1).val < win0_4.index _ (1 : Fin 2) * 2048 + 2048
    rw [e1]; show (16 * ((i 1).val / 2048) + (i 0).val / 512) / 16 * 2048 ≤ (i 1).val ∧ (i 1).val < (16 * ((i 1).val / 2048) + (i 0).val / 512) / 16 * 2048 + 2048
    omega

/-- An index of the array is in point t's tile iff each coordinate is in the tile's range on its axis. -/
theorem mem_tile5 (t : Fin cfg0.N) (i : S8192x8192.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v2_1).slice (win0_5.rect t)).set ↔ _
  rw [View.set_slice_whole, Rect.mem_set_unit]
  exact Iff.rfl

/-- Every synapse is in some point's tile: row a and column z in the tile of point 16·(z / 2048) + a / 512. -/
theorem cover5 (i : S8192x8192.Idx) : ∃ t : Fin cfg0.N, (cfg0.win 5).flush t = true ∧ i ∈ ((cfg0.win 5).blk t).view.set := by
  have h0 : (i 0).val < 8192 := (i 0).isLt
  have h1 : (i 1).val < 8192 := (i 1).isLt
  have hN : cfg0.N = 64 := N_0
  refine ⟨⟨16 * ((i 1).val / 2048) + (i 0).val / 512, by omega⟩, flush0_5 _, ?_⟩
  obtain ⟨-, -, -, -, -, -, -, -, -, -, e0, e1, -⟩ := idx_facts ⟨16 * ((i 1).val / 2048) + (i 0).val / 512, by omega⟩
  rw [mem_tile5]
  intro a
  match a with
  | ⟨0, _⟩ =>
    show win0_5.index _ (0 : Fin 2) * 512 ≤ (i 0).val ∧ (i 0).val < win0_5.index _ (0 : Fin 2) * 512 + 512
    rw [e0]; show (16 * ((i 1).val / 2048) + (i 0).val / 512) % 16 * 512 ≤ (i 0).val ∧ (i 0).val < (16 * ((i 1).val / 2048) + (i 0).val / 512) % 16 * 512 + 512
    omega
  | ⟨1, _⟩ =>
    show win0_5.index _ (1 : Fin 2) * 2048 ≤ (i 1).val ∧ (i 1).val < win0_5.index _ (1 : Fin 2) * 2048 + 2048
    rw [e1]; show (16 * ((i 1).val / 2048) + (i 0).val / 512) / 16 * 2048 ≤ (i 1).val ∧ (i 1).val < (16 * ((i 1).val / 2048) + (i 0).val / 512) / 16 * 2048 + 2048
    omega

/-- The gating array after the run. -/
theorem final4 (c : Dev nD) : (dats m 0 c).arrAt 4 cfg0.N = SNext (m ((c : Thread nD τ).loc main_arg0)) (m ((c : Thread nD τ).loc main_arg1)) (m ((c : Thread nD τ).loc main_arg3)) :=
  (dats m 0 c).arrAt_eq_of_cover 4 (SNext (m ((c : Thread nD τ).loc main_arg0)) (m ((c : Thread nD τ).loc main_arg1)) (m ((c : Thread nD τ).loc main_arg3))) (fun t _ => flushed4_eq m c t) cover4

/-- The depression array after the run. -/
theorem final5 (c : Dev nD) : (dats m 0 c).arrAt 5 cfg0.N = DNext (m ((c : Thread nD τ).loc main_arg2)) (m ((c : Thread nD τ).loc main_arg3)) :=
  (dats m 0 c).arrAt_eq_of_cover 5 (DNext (m ((c : Thread nD τ).loc main_arg2)) (m ((c : Thread nD τ).loc main_arg3))) (fun t _ => flushed5_eq m c t) cover5

/-! ## The accumulator, carried through a column tile -/

/-- One point adds its 512 rows of column q's contributions to the accumulator it found. -/
theorem acc_step (c : Dev nD) (t : Fin cfg0.N) (acc : Vec Ideal S2048 .f32) (q : Fin 2048) :
    k0_pay5 (F := Ideal) (spikeTile (grid0.coords t) (iblk m c 0 t)) (iblk m c 1 t) (iblk m c 2 t) (iblk m c 3 t) acc (ix1 q)
      = acc (ix1 q) + ∑ r : Fin 512, column (m ((c : Thread nD τ).loc main_arg0)) (m ((c : Thread nD τ).loc main_arg1)) (m ((c : Thread nD τ).loc main_arg2)) (m ((c : Thread nD τ).loc main_arg3)) (colOf t.val q) (rowOf t.val r) := by
  refine (acc_apply (spikeTile (grid0.coords t) (iblk m c 0 t)) (iblk m c 1 t) (iblk m c 2 t) (iblk m c 3 t) acc q).trans ?_
  refine congrArg (acc (ix1 q) + ·) (Finset.sum_congr rfl fun r _ => ?_)
  refine (drive_apply (spikeTile (grid0.coords t) (iblk m c 0 t)) (iblk m c 1 t) (iblk m c 2 t) (iblk m c 3 t) ((m ((c : Thread nD τ).loc main_arg3)) (ix2 (rowOf t.val r) (colOf t.val q))) r q (synTile_apply m c t r q)).trans ?_
  rw [spikeTile_apply, sTile_apply, dTile_apply]
  rfl

/-- So if it found the first `t mod 16` row tiles of the column summed, it leaves one tile more. -/
theorem acc_tiles (c : Dev nD) (t : Fin cfg0.N) (acc : Vec Ideal S2048 .f32) (q : Fin 2048)
    (hacc : acc (ix1 q) = tiles (column (m ((c : Thread nD τ).loc main_arg0)) (m ((c : Thread nD τ).loc main_arg1)) (m ((c : Thread nD τ).loc main_arg2)) (m ((c : Thread nD τ).loc main_arg3)) (colOf t.val q)) (t.val % 16)) :
    k0_pay5 (F := Ideal) (spikeTile (grid0.coords t) (iblk m c 0 t)) (iblk m c 1 t) (iblk m c 2 t) (iblk m c 3 t) acc (ix1 q)
      = tiles (column (m ((c : Thread nD τ).loc main_arg0)) (m ((c : Thread nD τ).loc main_arg1)) (m ((c : Thread nD τ).loc main_arg2)) (m ((c : Thread nD τ).loc main_arg3)) (colOf t.val q)) (t.val % 16 + 1) := by
  rw [tiles_succ _ (t.val % 16) (Nat.mod_lt _ (by decide)), ← hacc]
  exact acc_step m c t acc q

/-- After point n the accumulator holds, at column q of its tile, the first `n mod 16 + 1` row tiles of that array
    column summed: by induction on the point. A point with `n mod 16 = 0` starts from the zeros it stored; any other
    from what the point before left, which is in the same column tile. -/
theorem acc_eq (c : Dev nD) : ∀ (n : ℕ) (h : n < cfg0.N) (q : Fin 2048),
    (outsAt0 m c n h).2.2 (ix1 q) = tiles (column (m ((c : Thread nD τ).loc main_arg0)) (m ((c : Thread nD τ).loc main_arg1)) (m ((c : Thread nD τ).loc main_arg2)) (m ((c : Thread nD τ).loc main_arg3)) (colOf n q)) (n % 16 + 1)
  | 0, h, q => by
    rw [outsAt0_A m c ⟨0, h⟩ rfl]
    dsimp only
    rw [out_A_6]
    refine acc_tiles m c ⟨0, h⟩ (k0_pay1 (F := Ideal)) q ?_
    show Ideal.ofBits .f32 0x00000000#32 = tiles _ 0
    rw [tiles_zero, Ideal.ofBits_zero_f32]
  | n + 1, h, q => by
    by_cases h0 : (n + 1) % 16 = 0
    · rw [outsAt0_A m c ⟨n + 1, h⟩ h0]
      dsimp only
      rw [out_A_6]
      refine acc_tiles m c ⟨n + 1, h⟩ (k0_pay1 (F := Ideal)) q ?_
      show Ideal.ofBits .f32 0x00000000#32 = tiles _ ((n + 1) % 16)
      rw [h0, tiles_zero, Ideal.ofBits_zero_f32]
    · rw [outsAt0_B m c ⟨n + 1, h⟩ h0]
      dsimp only
      rw [out_B_6]
      refine acc_tiles m c ⟨n + 1, h⟩ _ q ?_
      show (outsAt0 m c n _).2.2 (ix1 q) = tiles _ ((n + 1) % 16)
      rw [acc_eq c n (Nat.lt_of_succ_lt h) q]
      have hc : colOf (n + 1) q = colOf n q := Fin.ext (by
        show 2048 * ((n + 1) / 16 % 4) + q.val = 2048 * (n / 16 % 4) + q.val; omega)
      have hm : (n + 1) % 16 = n % 16 + 1 := by omega
      rw [hc, hm]

/-- An index of the drive array is in point t's tile iff it is in the tile's range. -/
theorem mem_tile6 (t : Fin cfg0.N) (i : S8192.Idx) :
    i ∈ ((cfg0.win 6).blk t).view.set ↔ ∀ a : Fin 1, win0_6.index t a * S2048.size a ≤ (i a).val ∧ (i a).val < win0_6.index t a * S2048.size a + S2048.size a := by
  show i ∈ ((View.whole main_v2_2).slice (win0_6.rect t)).set ↔ _
  rw [View.set_slice_whole, Rect.mem_set_unit]
  exact Iff.rfl

/-- The accumulator is written back after the sixteenth row tile: it is then the whole column's sum. -/
theorem flushed6_eq (c : Dev nD) (t : Fin cfg0.N) (hf : (cfg0.win 6).flush t = true) :
    (dats m 0 c).flushed 6 t = ((cfg0.win 6).blk t).view.read (Elt Ideal) (Drive (m ((c : Thread nD τ).loc main_arg0)) (m ((c : Thread nD τ).loc main_arg1)) (m ((c : Thread nD τ).loc main_arg2)) (m ((c : Thread nD τ).loc main_arg3))) := by
  have h15 : t.val % 16 = 15 := (flush0_6 t).mp hf
  have hN := lt64 t
  obtain ⟨-, -, -, -, -, -, -, -, -, -, -, -, e6, -⟩ := idx_facts t
  rw [Value.flushed6]
  funext j
  obtain ⟨q, rfl⟩ : ∃ q : Fin 2048, j = ix1 q := ⟨j 0, eq_ix1 (n := 2048) j⟩
  show (outsAt0 m c t.val t.isLt).2.2 (ix1 q) = Drive (m ((c : Thread nD τ).loc main_arg0)) (m ((c : Thread nD τ).loc main_arg1)) (m ((c : Thread nD τ).loc main_arg2)) (m ((c : Thread nD τ).loc main_arg3)) (((cfg0.win 6).blk t).view.emb (ix1 q))
  have he : ((cfg0.win 6).blk t).view.emb (ix1 q) = ix1 (colOf t.val q) :=
    funext fun a => Fin.ext (by
      match a with
      | ⟨0, _⟩ => show win0_6.index t (0 : Fin 1) * 2048 + 1 * q.val = 2048 * (t.val / 16 % 4) + q.val; omega)
  rw [he, acc_eq m c t.val t.isLt q, h15, tiles_all]
  rfl

/-- Every column is in the tile written back after point 16·(z / 2048) + 15. -/
theorem cover6 (i : S8192.Idx) : ∃ t : Fin cfg0.N, (cfg0.win 6).flush t = true ∧ i ∈ ((cfg0.win 6).blk t).view.set := by
  have h0 : (i 0).val < 8192 := (i 0).isLt
  have hN : cfg0.N = 64 := N_0
  refine ⟨⟨16 * ((i 0).val / 2048) + 15, by omega⟩, (flush0_6 _).mpr (by show (16 * ((i 0).val / 2048) + 15) % 16 = 15; omega), ?_⟩
  obtain ⟨-, -, -, -, -, -, -, -, -, -, -, -, e6, -⟩ := idx_facts ⟨16 * ((i 0).val / 2048) + 15, by omega⟩
  rw [mem_tile6]
  intro a
  match a with
  | ⟨0, _⟩ =>
    show win0_6.index _ (0 : Fin 1) * 2048 ≤ (i 0).val ∧ (i 0).val < win0_6.index _ (0 : Fin 1) * 2048 + 2048
    rw [e6]; show (16 * ((i 0).val / 2048) + 15) / 16 * 2048 ≤ (i 0).val ∧ (i 0).val < (16 * ((i 0).val / 2048) + 15) / 16 * 2048 + 2048
    omega

/-- The drive array after the run. -/
theorem final6 (c : Dev nD) : (dats m 0 c).arrAt 6 cfg0.N = Drive (m ((c : Thread nD τ).loc main_arg0)) (m ((c : Thread nD τ).loc main_arg1)) (m ((c : Thread nD τ).loc main_arg2)) (m ((c : Thread nD τ).loc main_arg3)) :=
  (dats m 0 c).arrAt_eq_of_cover 6 (Drive (m ((c : Thread nD τ).loc main_arg0)) (m ((c : Thread nD τ).loc main_arg1)) (m ((c : Thread nD τ).loc main_arg2)) (m ((c : Thread nD τ).loc main_arg3))) (flushed6_eq m c) cover6

/-! ## The run, read -/

/-- Every weakly fair execution of the kernel's program ends with its three result arrays at the specification's
    arrays of the arguments, and the arguments as they were. -/
theorem run : θ_run defs (onTc (τ := τ) (main (F := Ideal))) ⟨m, fun _ => 0, ρ⟩ fun r => ∀ c : Dev nD,
      r.2.mem ((c : Thread nD τ).loc main_v2_0) = SNext (m ((c : Thread nD τ).loc main_arg0)) (m ((c : Thread nD τ).loc main_arg1)) (m ((c : Thread nD τ).loc main_arg3))
      ∧ r.2.mem ((c : Thread nD τ).loc main_v2_1) = DNext (m ((c : Thread nD τ).loc main_arg2)) (m ((c : Thread nD τ).loc main_arg3))
      ∧ r.2.mem ((c : Thread nD τ).loc main_v2_2) = Drive (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
      (h c).2.2.1.trans (final6 m c), (h c).2.2.2⟩)
    (Value.run_blocks m ρ)

end Cert.Synapse.Kernel

end
-- ==== Proof.lean ====
/-
  One step of a synapse network, computed two ways, gives the same three arrays over the extended reals.

  Every synapse (a, z) of 8192 × 8192 has a gating state s, a depression variable d and a connectivity bit; row a has a
  spike. With g the bit as a number, the step is
      s' = s + g·(spike_a − s·κₛ),      d' = d + g·((1 − d)·κ_d),      f_z = ∑ₐ (g·d')·s',
  κₛ and κ_d being the two f32 literals both programs spell alike (Proof/Spec.lean states it once).

  The reference computes the arrays whole; in front of (1 − d)·κ_d it keeps the term (−0·spike)·d, which is zero for
  every extended real, and it sums each column over all 8192 rows at once from a zero (Proof/RefIsSpec.lean).
  The kernel walks 64 tiles of 512 rows by 2048 columns, column tile by column tile; it rebuilds g from the bits
  widened to words, writes each tile of s' and d' back at once, and carries the column sums of a column tile in an
  accumulator zeroed at the first row tile and written back after the sixteenth — so a column's sum arrives as sixteen
  partial sums added in order (Proof/KernelCases.lean: what a tile leaves; Proof/KernelPayload.lean: its arithmetic
  entry by entry; Proof/KernelBlocks.lean: the accumulator by induction on the tile, and the tiles filling the arrays).
  The two ways agree because zero times anything is zero, zero plus anything is itself, and a sum may be grouped at
  will: none of these needs a finite operand, so the precondition is never opened.

  The three frames: the two kernels' are the generated ones; the reference's is its generated run with the results
  dropped. Nothing was rewritten on the way to the ideal values, so `preserves` has nothing to state.
-/
import proofs.«115604_j42494406426725_2_alg».proof.Defs
import proofs.«115604_j42494406426725_2_alg».proof.Proof.Gen.Kernel
import proofs.«115604_j42494406426725_2_alg».proof.Proof.Gen.Kernel.Skeleton
import proofs.«115604_j42494406426725_2_alg».proof.Proof.Gen.Kernel.Launch
import proofs.«115604_j42494406426725_2_alg».proof.Proof.Gen.Kernel.Points
import proofs.«115604_j42494406426725_2_alg».proof.Proof.Gen.Kernel.Frame
import proofs.«115604_j42494406426725_2_alg».proof.Proof.Gen.KernelIdeal
import proofs.«115604_j42494406426725_2_alg».proof.Proof.Gen.KernelIdeal.Skeleton
import proofs.«115604_j42494406426725_2_alg».proof.Proof.Gen.KernelIdeal.Launch
import proofs.«115604_j42494406426725_2_alg».proof.Proof.Gen.KernelIdeal.Points
import proofs.«115604_j42494406426725_2_alg».proof.Proof.Gen.KernelIdeal.Frame
import proofs.«115604_j42494406426725_2_alg».proof.Proof.Gen.ReferenceIdeal
import proofs.«115604_j42494406426725_2_alg».proof.Proof.Gen.KernelIdeal.Value
import proofs.«115604_j42494406426725_2_alg».proof.Proof.Gen.ReferenceIdeal.Run
import proofs.«115604_j42494406426725_2_alg».proof.Proof.Gen.ReferenceIdeal.Read
import proofs.«115604_j42494406426725_2_alg».proof.Proof.Gen.Pre_finite_inputs
import proofs.«115604_j42494406426725_2_alg».proof.Proof.RefIsSpec
import proofs.«115604_j42494406426725_2_alg».proof.Proof.KernelBlocks
import Idealize.ShloMosaic.Adequacy
import Idealize.ShloMosaic.Init

noncomputable section

namespace Cert.Proof

open Idealize.ShloMosaic Idealize.ShloMosaic.TcCoe Idealize.SL.Sem Cert.Synapse

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments as they were: its generated run, the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end at the specification's three arrays of arguments that agree. -/
theorem algebraic : Cert.algebraic_KernelIdeal_ReferenceIdeal := by
  intro m ρ m' ρ' _ hagree
  refine ⟨_, _, _, Cert.Synapse.Kernel.run m ρ, ?_⟩
  refine (θ_run Cert.ReferenceIdeal.defs _ _).mono (fun _ h c => ?_) (Cert.ReferenceIdeal.Value.run (F := Ideal) m' ρ')
  obtain ⟨h16, h18, h21, hargs⟩ := h c
  obtain ⟨a0, a1, a2, a3⟩ := hagree c
  refine ⟨?_, ?_, ?_, hargs⟩
  · rw [h16, Cert.ReferenceIdeal.Read.val_main_v16_eq, Cert.Synapse.Ref.sNext_eq, a0, a1, a3]
  · rw [h18, Cert.ReferenceIdeal.Read.val_main_v18_eq, Cert.Synapse.Ref.dNext_eq, a2, a3]
  · rw [h21, Cert.ReferenceIdeal.Read.val_main_v21_eq, Cert.Synapse.Ref.drive_eq, a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
